-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x256 : Shape := ⟨2, ![256, 256]⟩
abbrev S1x256 : Shape := ⟨2, ![1, 256]⟩
abbrev S800000 : Shape := ⟨1, ![800000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S1x256 : S_.BroadcastsInDim S1x256 (![] : Fin 0 → Fin S1x256.rank)
  reducesTo_S1x256_S_d0_1 : S1x256.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S100000x256 .f32) (main_arg1 : FVec F S256x256 .f32) (main_arg2 : FVec F S1x256 .f32) (main_arg3 : FVec F S800000 .f32) (main_arg4 : IVec S800000 32) (main_arg5 : IVec S800000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S100000x256 : Shape := ⟨2, ![100000, 256]⟩
abbrev S256x256 : Shape := ⟨2, ![256, 256]⟩
abbrev S1x256 : Shape := ⟨2, ![1, 256]⟩
abbrev S800000 : Shape := ⟨1, ![800000]⟩
abbrev S4096x256 : Shape := ⟨2, ![4096, 256]⟩
abbrev S_ : Shape := ⟨0, ![]⟩
abbrev S800000x1 : Shape := ⟨2, ![800000, 1]⟩
abbrev S800000x256 : Shape := ⟨2, ![800000, 256]⟩

abbrev nBuf : Space → Nat
  | .hbm => 25
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S1x256, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S100000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S100000x256, .f32⟩
  | .hbm, ⟨21, _⟩ => ⟨S800000x1, .i32⟩
  | .hbm, ⟨22, _⟩ => ⟨S100000x256, .f32⟩
  | .hbm, ⟨23, _⟩ => ⟨S100000x256, .f32⟩
  | .hbm, ⟨24, _⟩ => ⟨S100000x256, .f32⟩
  | .local _ .vmem, ⟨0, _⟩ => ⟨S4096x256, .f32⟩
  | .local _ .vmem, ⟨1, _⟩ => ⟨S4096x256, .f32⟩
  | .local _ .vmem, ⟨2, _⟩ => ⟨S256x256, .f32⟩
  | .local _ .vmem, ⟨3, _⟩ => ⟨S4096x256, .f32⟩
  | .local _ .vmem, ⟨4, _⟩ => ⟨S4096x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S1x256_S100000x256_0_1 : S1x256.BroadcastsInDim S100000x256 (![0, 1] : Fin 2 → Fin S100000x256.rank)
  dot_S4096x256_S256x256_S4096x256_1_0_0_1_n_n_wf : DotDims.WF S4096x256 S256x256 S4096x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x256.size a < S100000x256.size a
  hwx0_0 : ∀ i : grid0.Coords, EltTy.bits .f32 = 32 ∨ (Rect.unit (s := S100000x256) (fun a => cc0_transform_0 i a * S4096x256.size a) (fun a => (Pipeline.Clip.of (cc0_transform_0 i a) (S4096x256.size a) (S100000x256.size a)).extent (S4096x256.size a)) fun a => Pipeline.Clip.inb (Pipeline.Clip.ok_of (hstart0_0 i a))).WholeWords (EltTy.packing .f32)
  hwxs0_0 : ∀ i : grid0.Coords, EltTy.bits .f32 = 32 ∨ (Rect.unit (s := S4096x256) (fun _ => 0) (fun a => (Pipeline.Clip.of (cc0_transform_0 i a) (S4096x256.size a) (S100000x256.size a)).extent (S4096x256.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S4096x256.size a < S100000x256.size a
  hwx0_2 : ∀ i : grid0.Coords, EltTy.bits .f32 = 32 ∨ (Rect.unit (s := S100000x256) (fun a => cc0_transform_2 i a * S4096x256.size a) (fun a => (Pipeline.Clip.of (cc0_transform_2 i a) (S4096x256.size a) (S100000x256.size a)).extent (S4096x256.size a)) fun a => Pipeline.Clip.inb (Pipeline.Clip.ok_of (hstart0_2 i a))).WholeWords (EltTy.packing .f32)
  hwxs0_2 : ∀ i : grid0.Coords, EltTy.bits .f32 = 32 ∨ (Rect.unit (s := S4096x256) (fun _ => 0) (fun a => (Pipeline.Clip.of (cc0_transform_2 i a) (S4096x256.size a) (S100000x256.size a)).extent (S4096x256.size a)) fun a => (Nat.zero_add _).trans_le (Pipeline.Clip.extent_le (Pipeline.Clip.ok_of (hstart0_2 i a)))).WholeWords (EltTy.packing .f32)

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf

abbrev win0_0 : Pipeline.Window sig grid0 :=
  Pipeline.Window.ofSpecClip (Memref.whole main_arg0) S4096x256.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpecClip (Memref.whole main_v0) S4096x256.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S256x256 : Shape := ⟨2, ![256, 256]⟩
abbrev S1x256 : Shape := ⟨2, ![1, 256]⟩
abbrev S800000 : Shape := ⟨1, ![800000]⟩
abbrev S_ : Shape := ⟨0, ![]⟩
abbrev S800000x1 : Shape := ⟨2, ![800000, 1]⟩
abbrev S800000x256 : Shape := ⟨2, ![800000, 256]⟩

abbrev nBuf : Space → Nat
  | .hbm => 25
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S1x256, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S100000x256, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S800000x256, .f32⟩
  | .hbm, ⟨16, _⟩ => ⟨S800000x1, .f32⟩
  | .hbm, ⟨17, _⟩ => ⟨S800000x256, .f32⟩
  | .hbm, ⟨18, _⟩ => ⟨S800000x256, .f32⟩
  | .hbm, ⟨19, _⟩ => ⟨S_, .f32⟩
  | .hbm, ⟨20, _⟩ => ⟨S100000x256, .f32⟩
  | .hbm, ⟨21, _⟩ => ⟨S800000x1, .i32⟩
  | .hbm, ⟨22, _⟩ => ⟨S100000x256, .f32⟩
  | .hbm, ⟨23, _⟩ => ⟨S100000x256, .f32⟩
  | .hbm, ⟨24, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S100000x256 : S_.BroadcastsInDim S100000x256 (![] : Fin 0 → Fin S100000x256.rank)
  bcast_S1x256_S100000x256_0_1 : S1x256.BroadcastsInDim S100000x256 (![0, 1] : Fin 2 → Fin S100000x256.rank)
  dot_S100000x256_S256x256_S100000x256_1_0_0_1_n_n_wf : DotDims.WF S100000x256 S256x256 S100000x256 [1] [0] [0] [1] [] []
  gather_S100000x256_S800000x1_S800000x256_1_0_n_n_0_1_1256_wf : GatherDims.WF S100000x256 S800000x1 S800000x256 [1] [0] [] [0] [] 1 ![1, 256]
  scatter_S100000x256_S800000x1_S800000x256_1_0_0_1_wf : ScatterDims.WF S100000x256 S800000x1 S800000x256 [1] [0] [0] 1

variable [Facts₀]

def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf
def gather_S100000x256_S800000x1_S800000x256_1_0_n_n_0_1_1256 : GatherDims S100000x256 S800000x1 S800000x256 where
  offsetDims := [1]
  collapsedSliceDims := [0]
  operandBatchingDims := []
  startIndicesBatchingDims := []
  startIndexMap := [0]
  indexVectorDim := 1
  sliceSizes := ![1, 256]
  wf := gather_S100000x256_S800000x1_S800000x256_1_0_n_n_0_1_1256_wf
def scatter_S100000x256_S800000x1_S800000x256_1_0_0_1 : ScatterDims S100000x256 S800000x1 S800000x256 where
  updateWindowDims := [1]
  insertedWindowDims := [0]
  scatterDimsToOperandDims := [0]
  indexVectorDim := 1
  wf := scatter_S100000x256_S800000x1_S800000x256_1_0_0_1_wf

class Facts : Prop extends Facts₀ where

variable [Facts]
-- ==== Proof.KernelBody.lean ====
/-
  The kernel body of the dense product, as a triple over its three staging buffers.

  Each grid point multiplies a block of 4096 rows of the left operand (256 columns) by the whole 256 × 256 right
  operand and stores the 4096 × 256 product block. The body reads the two input buffers whole, changes their element
  format (which moves no element), multiplies into a zero accumulator, and overwrites the result's buffer whole. The
  triple below states this for whatever the three buffers hold: nothing about the contents is needed to run the body,
  so the same statement serves every grid point, the last one included, whose input buffer holds rows past the end of
  the array that no one names.
-/
import proofs.«102895_j24781961298372_2_alg».proof.Proof.Gen.Kernel.Frame
import proofs.«102895_j24781961298372_2_alg».proof.Proof.Gen.Kernel.Skeleton
import Idealize.ShloMosaic.Lib.Pipeline.Kit
import Idealize.ShloMosaic.Lib.Tactic

noncomputable section

namespace Cert.Kernel.Body

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel has no variants. -/
abbrev 𝒱₀ : Variants := Variants.none

/-! ## The body's triple -/

/-- The kernel body on staging buffers `s0` of the left operand's window, `s1` of the right operand's (it has one) and
    `s2` of the result's: two whole loads, the product of the two loaded blocks into a zero accumulator, a load of the
    result's buffer that nothing reads, and a whole store. The result's buffer ends holding the product of what the
    other two hold; those are unchanged. -/
theorem sound_body (c : Dev nD) (E : Set ℕ) (i : grid0.Coords) (s0 : Fin 2) (s1 : Fin 1) (s2 : Fin 2)
    (X0 : S4096x256.Idx → Elt F .f32) (X1 : S256x256.Idx → Elt F .f32) (X2 : S4096x256.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__matmul_kernel i (stage0_0 s0) (hstage0_0 s0) (stage0_1 s1) (hstage0_1 s1) (stage0_2 s2) (hstage0_2 s2)) K := by
  -- every access is at offset zero with the buffer's own extents: a load reads the contents, the unmasked store
  -- writes the payload
  have hz : (![0, 0] : Fin 2 → Nat) = fun _ => 0 := funext fun a => by fin_cases a <;> rfl
  fin_cases s0 <;> fin_cases s1 <;> fin_cases s2
  ·
    have hr0 : (Memref.whole cc0_stg0_0 : Memref sig .tc _ _ _).view.readAt (Elt F) (Rect.unit (s := S4096x256) ![0, 0] S4096x256.size
        inb_S4096x256_S4096x256_0_0).toLoadRect = id := funext (Memref.readAt_unit_zero (Elt F) cc0_stg0_0 hz _)
    have hr1 : (Memref.whole cc0_stg1_0 : Memref sig .tc _ _ _).view.readAt (Elt F) (Rect.unit (s := S256x256) ![0, 0] S256x256.size
        inb_S256x256_S256x256_0_0).toLoadRect = id := funext (Memref.readAt_unit_zero (Elt F) cc0_stg1_0 hz _)
    have hw2 : ∀ f w, (((Memref.whole cc0_stg2_0).access (Rect.unit (s := S4096x256) ![0, 0] S4096x256.size inb_S4096x256_S4096x256_0_0)) :
        View sig .tc _ _ _).write (Elt F) f w Finset.univ = w := Memref.write_access_unit_zero_univ (Elt F) cc0_stg2_0 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  ·
    have hr0 : (Memref.whole cc0_stg0_0 : Memref sig .tc _ _ _).view.readAt (Elt F) (Rect.unit (s := S4096x256) ![0, 0] S4096x256.size
        inb_S4096x256_S4096x256_0_0).toLoadRect = id := funext (Memref.readAt_unit_zero (Elt F) cc0_stg0_0 hz _)
    have hr1 : (Memref.whole cc0_stg1_0 : Memref sig .tc _ _ _).view.readAt (Elt F) (Rect.unit (s := S256x256) ![0, 0] S256x256.size
        inb_S256x256_S256x256_0_0).toLoadRect = id := funext (Memref.readAt_unit_zero (Elt F) cc0_stg1_0 hz _)
    have hw2 : ∀ f w, (((Memref.whole cc0_stg2_1).access (Rect.unit (s := S4096x256) ![0, 0] S4096x256.size inb_S4096x256_S4096x256_0_0)) :
        View sig .tc _ _ _).write (Elt F) f w Finset.univ = w := Memref.write_access_unit_zero_univ (Elt F) cc0_stg2_1 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  ·
    have hr0 : (Memref.whole cc0_stg0_1 : Memref sig .tc _ _ _).view.readAt (Elt F) (Rect.unit (s := S4096x256) ![0, 0] S4096x256.size
        inb_S4096x256_S4096x256_0_0).toLoadRect = id := funext (Memref.readAt_unit_zero (Elt F) cc0_stg0_1 hz _)
    have hr1 : (Memref.whole cc0_stg1_0 : Memref sig .tc _ _ _).view.readAt (Elt F) (Rect.unit (s := S256x256) ![0, 0] S256x256.size
        inb_S256x256_S256x256_0_0).toLoadRect = id := funext (Memref.readAt_unit_zero (Elt F) cc0_stg1_0 hz _)
    have hw2 : ∀ f w, (((Memref.whole cc0_stg2_0).access (Rect.unit (s := S4096x256) ![0, 0] S4096x256.size inb_S4096x256_S4096x256_0_0)) :
        View sig .tc _ _ _).write (Elt F) f w Finset.univ = w := Memref.write_access_unit_zero_univ (Elt F) cc0_stg2_0 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  ·
    have hr0 : (Memref.whole cc0_stg0_1 : Memref sig .tc _ _ _).view.readAt (Elt F) (Rect.unit (s := S4096x256) ![0, 0] S4096x256.size
        inb_S4096x256_S4096x256_0_0).toLoadRect = id := funext (Memref.readAt_unit_zero (Elt F) cc0_stg0_1 hz _)
    have hr1 : (Memref.whole cc0_stg1_0 : Memref sig .tc _ _ _).view.readAt (Elt F) (Rect.unit (s := S256x256) ![0, 0] S256x256.size
        inb_S256x256_S256x256_0_0).toLoadRect = id := funext (Memref.readAt_unit_zero (Elt F) cc0_stg1_0 hz _)
    have hw2 : ∀ f w, (((Memref.whole cc0_stg2_1).access (Rect.unit (s := S4096x256) ![0, 0] S4096x256.size inb_S4096x256_S4096x256_0_0)) :
        View sig .tc _ _ _).write (Elt F) f w Finset.univ = w := Memref.write_access_unit_zero_univ (Elt F) cc0_stg2_1 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.Kernel.Body

end
-- ==== Proof.KernelFrame.lean ====
/-
  The frame of the dense product followed by its host operations, at the word level.

  The program stages the left operand (100000 rows of 256 columns) through a window of 4096 rows over a grid of
  25 points, the right operand (256 x 256) through a window fetched once, and the product through a window of 4096
  rows written back at every point. 25 * 4096 = 102400 exceeds 100000, so the last block of the left operand's
  window and of the product's window overhangs its array: the fetch of that block fills only the rows inside the
  array, and the staging buffer's remaining rows hold words that nothing names. At the word level nothing cheap can
  be said of what the matrix unit computes from such rows, and the claim proved here does not need it: it is the
  FRAME alone, that every weakly fair execution terminates without fault and the six argument arrays end as they
  were launched.

  So the proof data is relational. Of the two input windows it says that the body leaves the staging buffer as it
  found it; of the output window it says nothing at all. That is enough for a frame:
    * an input array is never written by the pipeline, whatever the staging buffers hold, so the two staged
      arguments end at their entry contents;
    * the four other arguments are staged by no window and written by no host operation, so they end at their
      contents at the region's entry, which are the launch contents because no host operation precedes the region;
    * the output array, and every buffer a later host operation writes (each is computed, directly or not, from
      the output array), is left unstated.
-/
import proofs.«102895_j24781961298372_2_alg».proof.Defs
import proofs.«102895_j24781961298372_2_alg».proof.Proof.KernelBody
import proofs.«102895_j24781961298372_2_alg».proof.Proof.Gen.Pre_finite_inputs
import Idealize.ShloMosaic.Lib.Pipeline.Kit
import Idealize.ShloMosaic.Lib.Pipeline.FrameSuffix
import Idealize.ShloMosaic.Lib.Tactic

noncomputable section

namespace Cert.Kernel.FrameProof

open Cert.Kernel Cert.Kernel.Gen Cert.Kernel.Body
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The relational proof data of core `c`. Each windowed array starts at its contents at the region's entry. Of
    what the body leaves in a window's current staging buffer: the output window (window 2) is unconstrained; an
    input window's buffer is left holding what it was handed. The invariant is the core's scoped buffers that are
    no staging buffer, at some contents each, and its generator register at some state; every array is held whole,
    and nothing is owed. -/
def rdat (c : Dev nD) : RDat τ (Elt F) Unit ℕ (UR sig nD τ) ℕ cfg0 c where
  A w := V m c (Pipeline.arrRef spec0 w)
  after w _ Y X := w.val = 2 ∨ X = Y
  Φ _ := Pipeline.ΦA spec0 c
  q _ := fullShare
  owed _ := 0

/-! ## The body obligation -/

/-- At every grid point, whatever the three current staging buffers hold, the body runs and hands the two input
    buffers back as it found them and the output buffer at the product of the two: the body's triple, which asks
    nothing of the contents. Nothing of what the buffers may hold at the point is used. -/
theorem body_obligation (c : Dev nD) : (rdat m c).BodyObligation (defs₀ (F := F)) 𝒱₀ () Set.univ := fun t Y _ => by
  rw [bigSep_W0, bigSep_W0]
  simp only
  rw [show (rdat m c).Φ t.succ = (rdat m c).Φ t.castSucc from rfl,
    show (rdat m c).owesAt () t.succ = (rdat m c).owesAt () t.castSucc from rfl]
  iintro ⟨HΦ, Ho, H0, H1, H2⟩
  iapply (sound_body (F := F) c Set.univ (grid0.coords t) (cfg0.slots t 0) (cfg0.slots t 1) (cfg0.slots t 2)
    (Y 0) (Y 1) (Y 2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  isplitl [H0]
  · iexists Y 0; isplitr; · ipureintro; exact Or.inr rfl
    iexact H0
  isplitl [H1]
  · iexists Y 1; isplitr; · ipureintro; exact Or.inr rfl
    iexact H1
  · iexists k0_pay1 (Y 0) (Y 1); isplitr; · ipureintro; exact Or.inl rfl
    iexact H2

/-! ## The host operations after the region -/

/-- The buffers the host operations after the region write: one result buffer each. The first of them that reads
    anything of the region reads the output array, of which nothing is stated, and the later ones read its result in
    turn; so nothing is stated of these buffers either. No argument array is among them. -/
def T : Finset (Ref sig .tc) :=
  {main_c, main_v1, main_v2, main_c_0, main_v3, main_v4, main_v5, main_v6, main_v7, main_v8, main_v9, main_v10,
   main_cst, main_v11, main_v12, main_v13, main_v14, main_v15}

/-- Every buffer a host operation after the region writes is one of `T`: each operation writes its own result
    buffer and no other. -/
theorem sfx_writes : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl
    all_goals intro b hb; simp only [StableHlo.nullary_writes, StableHlo.unary_writes, StableHlo.binary_writes, StableHlo.ternary_writes, Finset.mem_singleton] at hb; cases Proc.devRef_injective _ hb; decide

/-! ## The run -/

/-- At the compiled mesh, for any float values, from any memory whose semaphore counters are zero: every weakly
    fair execution of @main terminates without fault, each windowed array ends at some contents the relation allows
    after every write-back, and every unscoped buffer that is no window's array and that no later host operation
    writes ends at its contents at the region's entry. -/
theorem run_main : θ_run defs (onTc (τ := τ) (main (F := F))) (s₀ m ρ)
    (Pipeline.RDat.FramePostR cfg0 (rdat m) T (V m)) :=
  Pipeline.RDat.θ_run_frame_around_T cfgs (0 : Fin 1) launch0 defs₀ 𝒱₀ (rdat m) T m ρ main
    (hbody := body_obligation m)
    (hshare := fun c => (rdat m c).share_full fun _ => rfl) (howed := fun _ _ => rfl)
    (V₀ := V0 m) (opss := [hostOps1]) (hsub := sfx_sub) (hfresh := sfx_fresh) (hkeep := sfx_keeps) (hT := sfx_writes)
    (hmain := hmain m 𝒱₀) (hA := fun _ _ => rfl) (hΦ := fun _ _ => rfl)

/-! ## The frame -/

/-- The frame of the program as printed, at the word level: under the precondition (which is not used), every
    weakly fair execution of @main terminates without fault and the six argument arrays end unchanged. The two
    staged arguments are input arrays of the pipeline, which it never writes: they end at their entry contents.
    The other four are unscoped buffers that are no window's array and that no host operation writes: they end at
    their contents at the region's entry. Both are the launch contents, no host operation preceding the region. -/
theorem frame : Cert.frame_Kernel := fun m ρ _ =>
  (θ_run defs _ _).mono (fun _ h c =>
    ⟨((congrFun ((rdat m c).ArrAt_in 0 rfl cfg0.N) _).mp ((h c).1 0)).trans (V_main_arg0 m c),
      ((congrFun ((rdat m c).ArrAt_in 1 rfl cfg0.N) _).mp ((h c).1 1)).trans (V_main_arg1 m c),
      ((h c).2 main_arg2 (Finset.mem_sdiff.mpr ⟨Pipeline.mem_restRefs_of main_arg2 (by decide) (by decide), by decide⟩)).trans
        (V_main_arg2 m c),
      ((h c).2 main_arg3 (Finset.mem_sdiff.mpr ⟨Pipeline.mem_restRefs_of main_arg3 (by decide) (by decide), by decide⟩)).trans
        (V_main_arg3 m c),
      ((h c).2 main_arg4 (Finset.mem_sdiff.mpr ⟨Pipeline.mem_restRefs_of main_arg4 (by decide) (by decide), by decide⟩)).trans
        (V_main_arg4 m c),
      ((h c).2 main_arg5 (Finset.mem_sdiff.mpr ⟨Pipeline.mem_restRefs_of main_arg5 (by decide) (by decide), by decide⟩)).trans
        (V_main_arg5 m c)⟩)
    (run_main (F := Bits) m ρ)

end Cert.Kernel.FrameProof

end
-- ==== Proof.IdealBody.lean ====
/-
  The kernel body of the dense product, as a triple over its three staging buffers.

  Each grid point multiplies a block of 4096 rows of the left operand (256 columns) by the whole 256 × 256 right
  operand and stores the 4096 × 256 product block. The body reads the two input buffers whole, changes their element
  format (which moves no element), multiplies into a zero accumulator, and overwrites the result's buffer whole. The
  triple below states this for whatever the three buffers hold: nothing about the contents is needed to run the body,
  so the same statement serves every grid point, the last one included, whose input buffer holds rows past the end of
  the array that no one names.
-/
import proofs.«102895_j24781961298372_2_alg».proof.Proof.Gen.KernelIdeal.Frame
import proofs.«102895_j24781961298372_2_alg».proof.Proof.Gen.KernelIdeal.Skeleton
import Idealize.ShloMosaic.Lib.Pipeline.Kit
import Idealize.ShloMosaic.Lib.Tactic

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

/-- The kernel has no variants. -/
abbrev 𝒱₀ : Variants := Variants.none

/-! ## The body's triple -/

/-- The kernel body on staging buffers `s0` of the left operand's window, `s1` of the right operand's (it has one) and
    `s2` of the result's: two whole loads, the product of the two loaded blocks into a zero accumulator, a load of the
    result's buffer that nothing reads, and a whole store. The result's buffer ends holding the product of what the
    other two hold; those are unchanged. -/
theorem sound_body (c : Dev nD) (E : Set ℕ) (i : grid0.Coords) (s0 : Fin 2) (s1 : Fin 1) (s2 : Fin 2)
    (X0 : S4096x256.Idx → Elt F .f32) (X1 : S256x256.Idx → Elt F .f32) (X2 : S4096x256.Idx → Elt F .f32) (K : PUnit → sProp 𝕄) :
    iprop((owns (c : Thread nD τ) (stage0_0 s0) fullShare X0 ∗ owns (c : Thread nD τ) (stage0_1 s1) fullShare X1
            ∗ owns (c : Thread nD τ) (stage0_2 s2) fullShare X2)
          ∗ (iprop(owns (c : Thread nD τ) (stage0_0 s0) fullShare X0 ∗ owns (c : Thread nD τ) (stage0_1 s1) fullShare X1
                  ∗ owns (c : Thread nD τ) (stage0_2 s2) fullShare (k0_pay1 X0 X1)) -∗ K ⟨⟩))
      ⊢ wp frame (wpE (defs₀ (F := F)) 𝒱₀ c none) E
          (cc0__matmul_kernel i (stage0_0 s0) (hstage0_0 s0) (stage0_1 s1) (hstage0_1 s1) (stage0_2 s2) (hstage0_2 s2)) K := by
  -- every access is at offset zero with the buffer's own extents: a load reads the contents, the unmasked store
  -- writes the payload
  have hz : (![0, 0] : Fin 2 → Nat) = fun _ => 0 := funext fun a => by fin_cases a <;> rfl
  fin_cases s0 <;> fin_cases s1 <;> fin_cases s2
  ·
    have hr0 : (Memref.whole cc0_stg0_0 : Memref sig .tc _ _ _).view.readAt (Elt F) (Rect.unit (s := S4096x256) ![0, 0] S4096x256.size
        inb_S4096x256_S4096x256_0_0).toLoadRect = id := funext (Memref.readAt_unit_zero (Elt F) cc0_stg0_0 hz _)
    have hr1 : (Memref.whole cc0_stg1_0 : Memref sig .tc _ _ _).view.readAt (Elt F) (Rect.unit (s := S256x256) ![0, 0] S256x256.size
        inb_S256x256_S256x256_0_0).toLoadRect = id := funext (Memref.readAt_unit_zero (Elt F) cc0_stg1_0 hz _)
    have hw2 : ∀ f w, (((Memref.whole cc0_stg2_0).access (Rect.unit (s := S4096x256) ![0, 0] S4096x256.size inb_S4096x256_S4096x256_0_0)) :
        View sig .tc _ _ _).write (Elt F) f w Finset.univ = w := Memref.write_access_unit_zero_univ (Elt F) cc0_stg2_0 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  ·
    have hr0 : (Memref.whole cc0_stg0_0 : Memref sig .tc _ _ _).view.readAt (Elt F) (Rect.unit (s := S4096x256) ![0, 0] S4096x256.size
        inb_S4096x256_S4096x256_0_0).toLoadRect = id := funext (Memref.readAt_unit_zero (Elt F) cc0_stg0_0 hz _)
    have hr1 : (Memref.whole cc0_stg1_0 : Memref sig .tc _ _ _).view.readAt (Elt F) (Rect.unit (s := S256x256) ![0, 0] S256x256.size
        inb_S256x256_S256x256_0_0).toLoadRect = id := funext (Memref.readAt_unit_zero (Elt F) cc0_stg1_0 hz _)
    have hw2 : ∀ f w, (((Memref.whole cc0_stg2_1).access (Rect.unit (s := S4096x256) ![0, 0] S4096x256.size inb_S4096x256_S4096x256_0_0)) :
        View sig .tc _ _ _).write (Elt F) f w Finset.univ = w := Memref.write_access_unit_zero_univ (Elt F) cc0_stg2_1 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  ·
    have hr0 : (Memref.whole cc0_stg0_1 : Memref sig .tc _ _ _).view.readAt (Elt F) (Rect.unit (s := S4096x256) ![0, 0] S4096x256.size
        inb_S4096x256_S4096x256_0_0).toLoadRect = id := funext (Memref.readAt_unit_zero (Elt F) cc0_stg0_1 hz _)
    have hr1 : (Memref.whole cc0_stg1_0 : Memref sig .tc _ _ _).view.readAt (Elt F) (Rect.unit (s := S256x256) ![0, 0] S256x256.size
        inb_S256x256_S256x256_0_0).toLoadRect = id := funext (Memref.readAt_unit_zero (Elt F) cc0_stg1_0 hz _)
    have hw2 : ∀ f w, (((Memref.whole cc0_stg2_0).access (Rect.unit (s := S4096x256) ![0, 0] S4096x256.size inb_S4096x256_S4096x256_0_0)) :
        View sig .tc _ _ _).write (Elt F) f w Finset.univ = w := Memref.write_access_unit_zero_univ (Elt F) cc0_stg2_0 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2
  ·
    have hr0 : (Memref.whole cc0_stg0_1 : Memref sig .tc _ _ _).view.readAt (Elt F) (Rect.unit (s := S4096x256) ![0, 0] S4096x256.size
        inb_S4096x256_S4096x256_0_0).toLoadRect = id := funext (Memref.readAt_unit_zero (Elt F) cc0_stg0_1 hz _)
    have hr1 : (Memref.whole cc0_stg1_0 : Memref sig .tc _ _ _).view.readAt (Elt F) (Rect.unit (s := S256x256) ![0, 0] S256x256.size
        inb_S256x256_S256x256_0_0).toLoadRect = id := funext (Memref.readAt_unit_zero (Elt F) cc0_stg1_0 hz _)
    have hw2 : ∀ f w, (((Memref.whole cc0_stg2_1).access (Rect.unit (s := S4096x256) ![0, 0] S4096x256.size inb_S4096x256_S4096x256_0_0)) :
        View sig .tc _ _ _).write (Elt F) f w Finset.univ = w := Memref.write_access_unit_zero_univ (Elt F) cc0_stg2_1 hz _
    simp only [owns_whole_eq, cc0__matmul_kernel_eq_skeleton]; unfold cc0__matmul_kernel_skel
    simp only [Prog.lift, Prog.bind_op, Prog.bind_ret]
    iintro ⟨⟨⟨%f0, %hf0, H0⟩, ⟨%f1, %hf1, H1⟩, ⟨%f2, %hf2, H2⟩⟩, Hk⟩
    sl_steps
    iapply Hk
    rw [hr0, hr1, hw2]
    isplitl [H0]
    · iexists f0; isplitr; · ipureintro; exact hf0
      iexact H0
    isplitl [H1]
    · iexists f1; isplitr; · ipureintro; exact hf1
      iexact H1
    · iexists k0_pay1 f0 f1; isplitr; · ipureintro; rw [hf0, hf1]
      iexact H2

end Cert.KernelIdeal.Body

end
-- ==== Proof.IdealRun.lean ====
/-
  The run of the idealized dense product and its frame.

  The left operand has 100000 rows and is read in 25 blocks of 4096 rows; the last block starts at row 98304 and only
  its first 1696 rows lie inside the array. When that block is fetched, the rows of the staging buffer past the array's
  end hold values nothing names. The product is computed row by row: row r of the product block is the sum over k of
  (row r of the left block at column k) times (row k of the right operand). So the rows of the product block that lie
  inside the array do not depend on the unnamed rows of the left block, and only those rows are written back.

  The proof data below therefore names, for every grid point, the left block as "its rows inside the array, zero
  elsewhere", the right operand's block as it is, and the product of the two; the body obligation is stated on the
  rows inside the array only.
-/
import proofs.«102895_j24781961298372_2_alg».proof.Proof.IdealBody
import Idealize.ShloMosaic.PureOps.Ideal.Laws

noncomputable section

namespace Cert.KernelIdeal.Body

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf kernel pipe)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- A block of zeros: what the proof data puts on rows nothing names. -/
def zeroBlock : S4096x256.Idx → Elt F .f32 := fun _ => Scalar.ofBits .f32 0#32

/-- The left operand's block at point `t`, as a full 4096-row block: its rows inside the array, zero on the rows past
    the array's end (only the last point has such rows). -/
def leftBlock (c : Dev nD) (t : Fin cfg0.N) : S4096x256.Idx → Elt F .f32 :=
  win0_0.fill (grid0.coords t) zeroBlock (iblk m c 0 t)

/-- What the three staging buffers hold after the body at point `t`: the left block, the right operand, and their
    product. The arrays start at their contents when the region is entered; the invariant is the class's; nothing is
    owed. -/
def dats (_ : Fin 1) (c : Dev nD) : Dat τ (Elt F) Unit ℕ (UR sig nD τ) ℕ cfg0 c where
  A w := V m c (Pipeline.arrRef spec0 w)
  after w t := match w with
    | ⟨0, _⟩ => leftBlock m c t
    | ⟨1, _⟩ => iblk m c 1 t
    | ⟨2, _⟩ => k0_pay1 (leftBlock m c t) (iblk m c 1 t)
  Φ _ := Pipeline.ΦA spec0 c
  q _ := fullShare
  owed _ := 0

/-- The left operand's buffer as the body finds it: just fetched, so its rows inside the array are the block's and the
    rest is whatever the buffer held (`d`). -/
theorem before_0 (c : Dev nD) (t : Fin cfg0.N) (d) :
    (dats m 0 c).before (0 : Fin 3) t d = win0_0.fill (grid0.coords t) d (iblk m c 0 t) := by
  unfold Dat.before; rw [if_pos (fetch0_0 t)]; rfl

/-- The right operand's buffer holds the whole right operand at every point (fetched once, never moved). -/
theorem before_1 (c : Dev nD) (t : Fin cfg0.N) (d) : (dats m 0 c).before (1 : Fin 3) t d = iblk m c 1 t :=
  before0_1_of m (dats m 0 c) rfl (fun _ => rfl) t d

/-! ## The product's operand indices

At the product block's index `(r, c)` and contraction index `k` the left operand is read at `(r, k)` and the right
operand at `(k, c)`. -/

theorem lhs_row (i : S4096x256.Idx) (q : dot_S4096x256_S256x256_S4096x256_1_0_0_1_n_n.contr.Idx) : (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide),
    dif_pos (show (0 : Fin S4096x256.rank) ∈ dot_S4096x256_S256x256_S4096x256_1_0_0_1_n_n.lhsNonContracting by decide)]
  rfl
theorem lhs_col (i : S4096x256.Idx) (q : dot_S4096x256_S256x256_S4096x256_1_0_0_1_n_n.contr.Idx) : (dot_S4096x256_S256x256_S4096x256_1_0_0_1_n_n.lhsIdx i q 1).val = (q ⟨0, by decide⟩).val :=
  dot_S4096x256_S256x256_S4096x256_1_0_0_1_n_n.lhsIdx_val_of_single rfl i q
theorem rhs_row (i : S4096x256.Idx) (q : dot_S4096x256_S256x256_S4096x256_1_0_0_1_n_n.contr.Idx) : (dot_S4096x256_S256x256_S4096x256_1_0_0_1_n_n.rhsIdx i q 0).val = (q ⟨0, by decide⟩).val :=
  dot_S4096x256_S256x256_S4096x256_1_0_0_1_n_n.rhsIdx_val_of_single rfl i q
theorem rhs_col (i : S4096x256.Idx) (q : dot_S4096x256_S256x256_S4096x256_1_0_0_1_n_n.contr.Idx) : (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide),
    dif_pos (show (1 : Fin S256x256.rank) ∈ dot_S4096x256_S256x256_S4096x256_1_0_0_1_n_n.rhsNonContracting by decide)]
  rfl

/-! ## Rows inside the array do not see the rows past its end -/

/-- The result's window and the left operand's are cut alike: one index map, one block shape, arrays of one height. -/
theorem xsize_eq (i : grid0.Coords) (a : Fin 2) : win0_2.xsize i a = win0_0.xsize i a := rfl
/-- No block is cut along the columns. -/
theorem xsize_one (i : grid0.Coords) : win0_0.xsize i 1 = 256 := rfl

/-- A row of the product block that lies inside the array is the sum over `k` of that row of the left block times the
    right operand: it reads the left block on rows inside the array only, so it is the same whatever fills the left
    block past the array's end (`d` or `d'`). -/
theorem pay_cut_congr (i : grid0.Coords) (d d' : S4096x256.Idx → Elt Ideal .f32) (g : (win0_0.xblock i).Idx → Elt Ideal .f32)
    (W : S256x256.Idx → Elt Ideal .f32) :
    win0_2.cut i (k0_pay1 (F := Ideal) (win0_0.fill i d g) W) = win0_2.cut i (k0_pay1 (F := Ideal) (win0_0.fill i d' g) W) := by
  funext j
  show k0_pay1 (F := Ideal) (win0_0.fill i d g) W (win0_2.xinj i j) = k0_pay1 (F := Ideal) (win0_0.fill i d' g) W (win0_2.xinj i j)
  unfold k0_pay1
  simp only [matmul]
  rw [Ideal.matmul_apply, Ideal.matmul_apply]
  refine congrArg _ (Finset.sum_congr rfl fun k _ => ?_)
  refine congrArg (· * _) ?_
  show win0_0.fill i d g (dot_S4096x256_S256x256_S4096x256_1_0_0_1_n_n.lhsIdx (win0_2.xinj i j) k) = win0_0.fill i d' g (dot_S4096x256_S256x256_S4096x256_1_0_0_1_n_n.lhsIdx (win0_2.xinj i j) k)
  have hmv : win0_0.moved i (dot_S4096x256_S256x256_S4096x256_1_0_0_1_n_n.lhsIdx (win0_2.xinj i j) k) = true := (win0_0.moved_iff i _).mpr fun a => by
    match a with
    | ⟨0, _⟩ =>
      have h0 := lhs_row (win0_2.xinj i j) k
      have h1 : ((win0_2.xinj i j) 0).val = (j 0).val := rfl
      have h2 : (j 0).val < win0_0.xsize i 0 := (xsize_eq i 0) ▸ (j 0).isLt
      show (dot_S4096x256_S256x256_S4096x256_1_0_0_1_n_n.lhsIdx (win0_2.xinj i j) k 0).val < win0_0.xsize i 0
      omega
    | ⟨1, _⟩ =>
      show (dot_S4096x256_S256x256_S4096x256_1_0_0_1_n_n.lhsIdx (win0_2.xinj i j) k 1).val < win0_0.xsize i 1
      rw [xsize_one]; exact (dot_S4096x256_S256x256_S4096x256_1_0_0_1_n_n.lhsIdx (win0_2.xinj i j) k 1).isLt
  unfold Window.fill; rw [dif_pos hmv, dif_pos hmv]

/-! ## The body obligation, the run -/

/-- Refilling the rows inside the array of a filled-out block with themselves: only the filler matters outside. -/
theorem left_refill (i : grid0.Coords) (d z : S4096x256.Idx → Elt Ideal .f32) (g : (win0_0.xblock i).Idx → Elt Ideal .f32) :
    win0_0.fill i d (win0_0.cut i (win0_0.fill i z g)) = win0_0.fill i d g := by
  rw [win0_0.cut_fill]

/-- The product of a left block filled out with anything (`d`), with its rows inside the array replaced by those of
    the product of the block filled out with `z`, is itself: the two products agree on those rows. -/
theorem prod_refill (i : grid0.Coords) (d z : S4096x256.Idx → Elt Ideal .f32) (g : (win0_0.xblock i).Idx → Elt Ideal .f32)
    (W : S256x256.Idx → Elt Ideal .f32) :
    win0_2.fill i (k0_pay1 (F := Ideal) (win0_0.fill i d g) W) (win0_2.cut i (k0_pay1 (F := Ideal) (win0_0.fill i z g) W))
      = k0_pay1 (F := Ideal) (win0_0.fill i d g) W :=
  win0_2.fill_congr_cut i (pay_cut_congr i d z g W)

/-- At every point the body, handed the left operand's buffer just fetched (its rows inside the array the block's, the
    rest anything), the right operand's buffer holding the right operand, and the result's buffer holding anything,
    leaves the first two as they were and the result's at their product — which on the rows inside the array is the
    product the proof data names (`prod_refill`). The left and the result's windows are stated on those rows only; the
    right operand's window is never cut. -/
theorem body_obligation (mI : (ℓ : Loc nD τ sig) → Buf (Elt Ideal) ℓ) (c : Dev nD) :
    BodyObligationLoose (dats (F := Ideal) mI 0 c) (defs₀ (F := Ideal)) 𝒱₀ () Set.univ := fun t => by
  rw [bigSep_W0, bigSep_W0]
  simp only
  rw [show (dats mI 0 c).Φ t.succ = (dats mI 0 c).Φ t.castSucc from rfl,
    show (dats mI 0 c).owesAt () t.succ = (dats mI 0 c).owesAt () t.castSucc from rfl]
  iintro ⟨HΦ, Ho, ⟨%d0, H0⟩, ⟨%d1, H1⟩, ⟨%d2, H2⟩⟩
  rw [before_0 mI c t d0, before_1 mI c t d1]
  iapply (sound_body (F := Ideal) c Set.univ (grid0.coords t) (cfg0.slots t 0) (cfg0.slots t 1) (cfg0.slots t 2)
    (win0_0.fill (grid0.coords t) d0 (iblk mI c 0 t)) (iblk mI c 1 t) ((dats mI 0 c).before (2 : Fin 3) t d2) _)
  isplitl [H0 H1 H2]
  · isplitl [H0]
    · iexact H0
    isplitl [H1]
    · iexact H1
    · iexact H2
  iintro ⟨H0, H1, H2⟩
  isplitl [HΦ]; · iexact HΦ
  isplitl [Ho]; · iexact Ho
  have hx := left_refill (grid0.coords t) d0 zeroBlock (iblk mI c 0 t)
  have hp := prod_refill (grid0.coords t) d0 zeroBlock (iblk mI c 0 t) (iblk mI c 1 t)
  isplitl [H0]
  · iexists d0
    change _ ⊢ owns (c : Thread nD τ) (stage0_0 (cfg0.slots t 0)) fullShare
      (win0_0.fill (grid0.coords t) d0 (win0_0.cut (grid0.coords t) (win0_0.fill (grid0.coords t) zeroBlock (iblk mI c 0 t))))
    rw [hx]; try iexact H0
  isplitl [H1]
  · iexact H1
  · iexists k0_pay1 (win0_0.fill (grid0.coords t) d0 (iblk mI c 0 t)) (iblk mI c 1 t)
    change _ ⊢ owns (c : Thread nD τ) (stage0_2 (cfg0.slots t 2)) fullShare
      (win0_2.fill (α := Elt Ideal .f32) (grid0.coords t) (k0_pay1 (F := Ideal) (win0_0.fill (grid0.coords t) d0 (iblk mI c 0 t)) (iblk mI c 1 t))
        (win0_2.cut (α := Elt Ideal .f32) (grid0.coords t) (k0_pay1 (F := Ideal) (win0_0.fill (grid0.coords t) zeroBlock (iblk mI c 0 t)) (iblk mI c 1 t))))
    rw [hp]; try iexact H2

/-- At the ideal instance, from any memory with zero counters, every weakly fair execution of the program terminates
    without a fault; every array a window stages ends at what the proof data computes (an input its entry contents, the
    product array its entry contents overwritten block by block), and every other buffer at what the host operations
    after the region make of the region's results. -/
theorem run_main (mI : (ℓ : Loc nD τ sig) → Buf (Elt Ideal) ℓ) (ρ : Dev nD → PrngReg) :
    θ_run defs (onTc (τ := τ) (main (F := Ideal))) (s₀ mI ρ)
      (Pipeline.FramePost cfgs (dats mI) 0 (Pipeline.afterTail₀ cfgs (dats mI) 0 (V0 mI) [hostOps1])) :=
  Pipeline.θ_run_frame_around cfgs (dats mI) 0 launch0 defs₀ 𝒱₀ mI ρ main
    (hbody := body_obligation mI)
    (hshare := fun c => (dats mI 0 c).share_full fun _ => rfl) (howed := fun _ _ => rfl)
    (V₀ := V0 mI) (opss := [hostOps1]) (hsub := sfx_sub) (hfresh := sfx_fresh) (hkeep := sfx_keeps)
    (hmain := hmain mI 𝒱₀) (hA := fun _ _ => rfl) (hΦ := fun _ _ => rfl)

end Cert.KernelIdeal.Body

end
-- ==== Proof.IdealValue.lean ====
/-
  The product array after the run: the whole dense product.

  Point `t` of the grid writes back the rows of its product block that lie inside the array. Row `r` of that block is
  row `4096·t + r` of the array; its entry in column `c` is the sum over `k` of the left operand at `(4096·t + r, k)`
  times the right operand at `(k, c)` — the entry of the whole product at `(4096·t + r, c)`. The 25 blocks' rows inside
  the array are rows 0 to 99999, each once: row `i` belongs to point `i / 4096`. So the array ends holding the whole
  product.
-/
import proofs.«102895_j24781961298372_2_alg».proof.Proof.IdealRun
import proofs.«102895_j24781961298372_2_alg».proof.Proof.Gen.ReferenceIdeal.Read
import Idealize.ShloMosaic.Lib.Pipeline.Value
import Idealize.ShloMosaic.Lib.ValueIdx

noncomputable section

namespace Cert.KernelIdeal.Product

open Cert.KernelIdeal Cert.KernelIdeal.Gen Cert.KernelIdeal.Body
open Idealize.ShloMosaic
open Idealize.ShloMosaic.TcCoe
open Idealize.SL Idealize.SL.Sem
open Idealize.ShloMosaic.Pipeline (Dat Cfg Window)

/-- The whole product of the two argument arrays, index by index: the sum over `k` of `x (r, k) · w (k, c)`. It is
    the value the reference's one matrix product denotes at the ideal instance. -/
def prod (x : S100000x256.Idx → Elt Ideal .f32) (w : S256x256.Idx → Elt Ideal .f32) : S100000x256.Idx → Elt Ideal .f32 :=
  Cert.ReferenceIdeal.Read.val_main_v0 (F := Ideal) x w

/-! ## The schedule, decided over the grid -/

/-- Point `t` is block `t` along the rows and block 0 along the columns, for the left operand and for the product;
    the right operand's block is always the whole array. The last point's block has 1696 rows inside the array, every
    other all 4096. -/
theorem sched : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_2.xsize (grid0.coords t) (0 : Fin 2) = (if t.val = 24 then 1696 else 4096) :=
  (by decide +kernel : ∀ t : Fin grid0.N, _)

/-! ## The blocks the body reads, at an index -/

/-- The left block the proof data names, at a row inside the array, is the left operand there. -/
theorem left_at (mI : (ℓ : Loc nD τ sig) → Buf (Elt Ideal) ℓ) (c : Dev nD) (t : Fin cfg0.N) (j : S4096x256.Idx)
    (hj : (j 0).val < win0_0.xsize (grid0.coords t) 0) (i : S100000x256.Idx)
    (h0 : (i 0).val = t.val * 4096 + (j 0).val) (h1 : (i 1).val = (j 1).val) :
    leftBlock mI c t j = mI ((c : Thread nD τ).loc main_arg0) i := by
  have hmv : win0_0.moved (grid0.coords t) j = true := (win0_0.moved_iff (grid0.coords t) j).mpr fun a => by
    match a with
    | ⟨0, _⟩ => exact hj
    | ⟨1, _⟩ => show (j 1).val < win0_0.xsize (grid0.coords t) 1; rw [xsize_one]; exact (j 1).isLt
  obtain ⟨e0, e1, -⟩ := sched t
  unfold leftBlock Window.fill
  rw [dif_pos hmv]
  unfold iblk
  rw [View.read_apply]
  show mI ((c : Thread nD τ).loc main_arg0) _ = mI ((c : Thread nD τ).loc main_arg0) i
  refine congrArg _ (funext fun a => Fin.ext ?_)
  match a with
  | ⟨0, _⟩ => show win0_0.index t (0 : Fin 2) * 4096 + 1 * (j 0).val = (i 0).val; omega
  | ⟨1, _⟩ => show win0_0.index t (1 : Fin 2) * 256 + 1 * (j 1).val = (i 1).val; omega

/-- The right operand's block is the right operand. -/
theorem right_at (mI : (ℓ : Loc nD τ sig) → Buf (Elt Ideal) ℓ) (c : Dev nD) (t : Fin cfg0.N) (j i : S256x256.Idx)
    (h0 : (i 0).val = (j 0).val) (h1 : (i 1).val = (j 1).val) :
    iblk mI c 1 t j = mI ((c : Thread nD τ).loc main_arg1) i := by
  obtain ⟨-, -, e2, e3, -⟩ := sched t
  unfold iblk
  rw [View.read_apply]
  show mI ((c : Thread nD τ).loc main_arg1) _ = mI ((c : Thread nD τ).loc main_arg1) i
  refine congrArg _ (funext fun a => Fin.ext ?_)
  match a with
  | ⟨0, _⟩ => show win0_1.index t (0 : Fin 2) * 256 + 1 * (j 0).val = (i 0).val; omega
  | ⟨1, _⟩ => show win0_1.index t (1 : Fin 2) * 256 + 1 * (j 1).val = (i 1).val; omega

/-! ## What a point writes back -/

/-- Point `t` writes back block `t` of the whole product: at `(r, c)` of the block's rows inside the array the body's
    sum over `k` of the left block at `(r, k)` times the right operand at `(k, c)` is the whole product's sum at
    `(4096·t + r, c)`, factor by factor. -/
theorem flushed_eq (mI : (ℓ : Loc nD τ sig) → Buf (Elt Ideal) ℓ) (c : Dev nD) (t : Fin cfg0.N) :
    (dats mI 0 c).flushed 2 t = ((cfg0.win 2).blk t).view.read (Elt Ideal)
      (prod (mI ((c : Thread nD τ).loc main_arg0)) (mI ((c : Thread nD τ).loc main_arg1))) := by
  obtain ⟨-, -, -, -, e4, e5, -⟩ := sched t
  funext y
  rw [View.read_apply]
  unfold prod
  rw [Cert.ReferenceIdeal.Read.val_main_v0_apply]
  show k0_pay1 (F := Ideal) (leftBlock mI c t) (iblk mI c 1 t) (win0_2.xinj (grid0.coords t) y) = _
  unfold k0_pay1
  simp only [matmul]
  rw [Ideal.matmul_constant_zero_apply, ← Equiv.sum_comp (ValueIdx.contrEquiv1 dot_S4096x256_S256x256_S4096x256_1_0_0_1_n_n 256 rfl rfl).symm]
  refine Finset.sum_congr rfl fun k _ => ?_
  have hk := ValueIdx.contrEquiv1_symm_val dot_S4096x256_S256x256_S4096x256_1_0_0_1_n_n 256 rfl rfl k
  generalize (ValueIdx.contrEquiv1 dot_S4096x256_S256x256_S4096x256_1_0_0_1_n_n 256 rfl rfl).symm k = k' at hk ⊢
  -- the block's coordinates in the array: block index × block size + the coordinate inside the block
  have a0 : ((((cfg0.win 2).blk t).view.emb y) 0).val = win0_2.index t (0 : Fin 2) * 4096 + 1 * (y 0).val := rfl
  have a1 : ((((cfg0.win 2).blk t).view.emb y) 1).val = win0_2.index t (1 : Fin 2) * 256 + 1 * (y 1).val := rfl
  have x0 : ((win0_2.xinj (grid0.coords t) y) 0).val = (y 0).val := rfl
  have x1 : ((win0_2.xinj (grid0.coords t) y) 1).val = (y 1).val := rfl
  have l0 := lhs_row (win0_2.xinj (grid0.coords t) y) k'
  have l1 := (lhs_col (win0_2.xinj (grid0.coords t) y) k').trans hk
  have r0 := (rhs_row (win0_2.xinj (grid0.coords t) y) k').trans hk
  have r1 := rhs_col (win0_2.xinj (grid0.coords t) y) k'
  have hy : (y 0).val < win0_0.xsize (grid0.coords t) 0 := (xsize_eq (grid0.coords t) 0) ▸ (y 0).isLt
  refine congrArg₂ (· * ·) ?_ ?_
  · show leftBlock mI c t (dot_S4096x256_S256x256_S4096x256_1_0_0_1_n_n.lhsIdx (win0_2.xinj (grid0.coords t) y) k') = _
    refine left_at mI c t (dot_S4096x256_S256x256_S4096x256_1_0_0_1_n_n.lhsIdx (win0_2.xinj (grid0.coords t) y) k') (by omega)
      (Cert.ReferenceIdeal.Read.lidx_main_v0 (((cfg0.win 2).blk t).view.emb y) k) ?_ ?_
    · show ((((cfg0.win 2).blk t).view.emb y) 0).val = _
      omega
    · show k.val = _
      omega
  · show iblk mI c 1 t (dot_S4096x256_S256x256_S4096x256_1_0_0_1_n_n.rhsIdx (win0_2.xinj (grid0.coords t) y) k') = _
    refine right_at mI c t (dot_S4096x256_S256x256_S4096x256_1_0_0_1_n_n.rhsIdx (win0_2.xinj (grid0.coords t) y) k')
      (Cert.ReferenceIdeal.Read.ridx_main_v0 (((cfg0.win 2).blk t).view.emb y) k) ?_ ?_
    · show k.val = _
      omega
    · show ((((cfg0.win 2).blk t).view.emb y) 1).val = _
      omega

/-! ## The blocks cover the array -/

/-- An index of the array is in point `t`'s block iff on each axis it lies in the block's range inside the array. -/
theorem mem_blk (t : Fin cfg0.N) (i : S100000x256.Idx) :
    i ∈ ((cfg0.win 2).blk t).view.set ↔ ∀ a : Fin 2, win0_2.index t a * S4096x256.size a ≤ (i a).val
      ∧ (i a).val < win0_2.index t a * S4096x256.size a + win0_2.xsize (grid0.coords t) a := by
  show i ∈ ((View.whole main_v0).slice (win0_2.rect t)).set ↔ _
  rw [View.set_slice_whole, Rect.mem_set_unit]
  exact Iff.rfl

/-- Row `i` of the array is in the block of point `i / 4096`: the first 24 blocks hold 4096 rows each, the last the
    remaining 1696. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  have hN : cfg0.N = 25 := N_0
  let t : Fin cfg0.N := ⟨(i 0).val / 4096, by rw [hN]; omega⟩
  have tv : t.val = (i 0).val / 4096 := rfl
  obtain ⟨-, -, -, -, e4, e5, e6⟩ := sched t
  refine ⟨t, flush0_2 t, (mem_blk t i).mpr fun a => ?_⟩
  match a with
  | ⟨0, _⟩ =>
    show win0_2.index t (0 : Fin 2) * 4096 ≤ (i 0).val ∧ (i 0).val < win0_2.index t (0 : Fin 2) * 4096 + win0_2.xsize (grid0.coords t) 0
    rw [e4, e6, tv]
    split <;> omega
  | ⟨1, _⟩ =>
    show win0_2.index t (1 : Fin 2) * 256 ≤ (i 1).val ∧ (i 1).val < win0_2.index t (1 : Fin 2) * 256 + win0_2.xsize (grid0.coords t) 1
    have h256 : win0_2.xsize (grid0.coords t) 1 = 256 := rfl
    rw [e5, h256]; omega

/-- The product array after the run is the whole product of the two argument arrays. -/
theorem final (mI : (ℓ : Loc nD τ sig) → Buf (Elt Ideal) ℓ) (c : Dev nD) :
    (dats mI 0 c).arrAt 2 cfg0.N = prod (mI ((c : Thread nD τ).loc main_arg0)) (mI ((c : Thread nD τ).loc main_arg1)) :=
  (dats mI 0 c).arrAt_eq_of_cover 2 _ (fun t _ => flushed_eq mI c t) cover

end Cert.KernelIdeal.Product

end
-- ==== Proof.IdealTail.lean ====
/-
  The host operations after the region of the idealized program, read back as one term.

  After the region has written the product array, the program fixes up the row indices it was given (a negative
  index has the number of rows, 100000, added to it), gathers those rows of the product, scales each gathered row
  by its weight, adds the scaled rows into an array of zeros at the rows a second index list names, and adds the
  bias row to every row of the result. Each of these operations writes a buffer of its own and reads only the
  product array, the argument arrays and the buffers written before it, so what the last buffer holds at the end is
  a composition of pure functions applied to the product array and the argument arrays: the term `tail` below.

  The reference program computes the same composition from the product it computes itself, over dimension records
  of its own that have the same fields; so its result is `tail` of its product (`ref_term_eq`).
-/
import proofs.«102895_j24781961298372_2_alg».proof.Proof.Gen.KernelIdeal.Frame
import proofs.«102895_j24781961298372_2_alg».proof.Proof.Gen.ReferenceIdeal.Run
import Idealize.ShloMosaic.Lib.StableHlo.Run

noncomputable section

namespace Cert.KernelIdeal.Tail

open Cert.KernelIdeal Cert.KernelIdeal.Gen
open Idealize.ShloMosaic Idealize.ShloMosaic.TcCoe Idealize.SL.Sem Idealize.ShloMosaic.StableHlo

variable {F : FTy → Type} [FloatOps F]

/-- What the last result buffer holds after the host operations, as a function of the product array `P` and the
    argument arrays: the bias row `x2` added to every row of the scatter-add, into zeros at the rows `x5` names, of
    the rows of `P` that the fixed-up indices `x4` name, each scaled by its weight in `x3`. -/
def tail (P : (⟨S100000x256, .f32⟩ : BufTy).Contents (Elt F)) (x2 : (⟨S1x256, .f32⟩ : BufTy).Contents (Elt F))
    (x3 : (⟨S800000, .f32⟩ : BufTy).Contents (Elt F)) (x4 x5 : (⟨S800000, .i32⟩ : BufTy).Contents (Elt F)) :
    (⟨S100000x256, .f32⟩ : BufTy).Contents (Elt F) :=
  addf (Host.scatterAdd scatter_S100000x256_S800000x1_S800000x256_1_0_0_1
      (broadcastInDim S100000x256 ![] bcast_S_S100000x256 (constant S_ .f32 0x00000000#32))
      (broadcastInDim S800000x1 ![0] bcast_S800000_S800000x1_0 x5)
      (mulf (Host.gather gather_S100000x256_S800000x1_S800000x256_1_0_n_n_0_1_1256 P
          (broadcastInDim S800000x1 ![0] bcast_S800000_S800000x1_0
            (select (cmpi .slt x4 (broadcastInDim S800000 ![] bcast_S_S800000 (constantI S_ 32 0#32)))
              (addi x4 (broadcastInDim S800000 ![] bcast_S_S800000 (constantI S_ 32 100000#32))) x4)))
        (broadcastInDim S800000x256 ![0, 1] bcast_S800000x1_S800000x256_0_1
          (broadcastInDim S800000x1 ![0] bcast_S800000_S800000x1_0 x3))))
    (broadcastInDim S100000x256 ![0, 1] bcast_S1x256_S100000x256_0_1 x2)

variable (m : (ℓ : Loc nD τ sig) → Buf (Elt F) ℓ)

set_option maxHeartbeats 2000000 in
/-- After the host operations that follow the region, the last result buffer holds `tail` of the product array as
    the region left it and of the argument arrays as launched. Each operation's result is its function of what its
    operands hold; an operand written by an earlier operation holds that operation's result, and an operand no
    operation writes holds what the region left there: the product array what the write-backs made of it, an
    argument array (no window's array, none precedes the region) its launch contents. -/
theorem afterTail_v15 (dats : (p : Fin 1) → (c : Dev nD) → Pipeline.Dat τ (Elt F) Unit ℕ (UR sig nD τ) ℕ (cfgs p) c) (c : Dev nD) :
    Pipeline.afterTail₀ cfgs dats 0 (V0 m) [hostOps1] c main_v15
      = tail ((dats 0 c).arrAt 2 cfg0.N) (m ((c : Thread nD τ).loc main_arg2)) (m ((c : Thread nD τ).loc main_arg3))
          (m ((c : Thread nD τ).loc main_arg4)) (m ((c : Thread nD τ).loc main_arg5)) := by
  -- the region's exit contents at the buffers the operations read and none of them writes
  have h0 : Pipeline.withArrays (cfgs 0).spec c (V0 m c) (fun w => (dats 0 c).arrAt w (cfgs 0).N) (Proc.devRef .tc main_v0)
      = (dats 0 c).arrAt 2 cfg0.N := Pipeline.withArrays_arr spec0 launch0.win.arr_inj c _ _ 2
  have h2 : Pipeline.withArrays (cfgs 0).spec c (V0 m c) (fun w => (dats 0 c).arrAt w (cfgs 0).N) (Proc.devRef .tc main_arg2)
      = m ((c : Thread nD τ).loc main_arg2) :=
    (Pipeline.withArrays_of_ne _ c (V0 m c) _ main_arg2 (by exact (by decide : ∀ w, Pipeline.arrRef spec0 w ≠ main_arg2))).trans
      (V_main_arg2 m c)
  have h3 : Pipeline.withArrays (cfgs 0).spec c (V0 m c) (fun w => (dats 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have h4 : Pipeline.withArrays (cfgs 0).spec c (V0 m c) (fun w => (dats 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  have h5 : Pipeline.withArrays (cfgs 0).spec c (V0 m c) (fun w => (dats 0 c).arrAt w (cfgs 0).N) (Proc.devRef .tc main_arg5)
      = m ((c : Thread nD τ).loc main_arg5) :=
    (Pipeline.withArrays_of_ne _ c (V0 m c) _ main_arg5 (by exact (by decide : ∀ w, Pipeline.arrRef spec0 w ≠ main_arg5))).trans
      (V_main_arg5 m c)
  unfold Pipeline.afterTail₀
  show StableHlo.after hostOps1 _ (Proc.devRef .tc main_v15) = _
  after_results
  rw [h0, h2, h3, h4, h5]
  rfl

/-- The reference program's result, as a term of its six argument arrays, is `tail` of the product it computes:
    the two programs apply the same operations, over dimension records that are different constants with the same
    fields. -/
theorem ref_term_eq (x0 : (⟨S100000x256, .f32⟩ : BufTy).Contents (Elt F)) (x1 : (⟨S256x256, .f32⟩ : BufTy).Contents (Elt F))
    (x2 : (⟨S1x256, .f32⟩ : BufTy).Contents (Elt F)) (x3 : (⟨S800000, .f32⟩ : BufTy).Contents (Elt F))
    (x4 x5 : (⟨S800000, .i32⟩ : BufTy).Contents (Elt F)) :
    addf (Host.scatterAdd Cert.ReferenceIdeal.scatter_S100000x256_S800000x1_S800000x256_1_0_0_1
        (broadcastInDim Cert.ReferenceIdeal.S100000x256 ![] Cert.ReferenceIdeal.Gen.bcast_S_S100000x256
          (constant Cert.ReferenceIdeal.S_ .f32 0x00000000#32))
        (broadcastInDim Cert.ReferenceIdeal.S800000x1 ![0] Cert.ReferenceIdeal.Gen.bcast_S800000_S800000x1_0 x5)
        (mulf (Host.gather Cert.ReferenceIdeal.gather_S100000x256_S800000x1_S800000x256_1_0_n_n_0_1_1256
            (Host.dotGeneral Cert.ReferenceIdeal.dot_S100000x256_S256x256_S100000x256_1_0_0_1_n_n none x0 x1)
            (broadcastInDim Cert.ReferenceIdeal.S800000x1 ![0] Cert.ReferenceIdeal.Gen.bcast_S800000_S800000x1_0
              (select (cmpi .slt x4 (broadcastInDim Cert.ReferenceIdeal.S800000 ![] Cert.ReferenceIdeal.Gen.bcast_S_S800000
                  (constantI Cert.ReferenceIdeal.S_ 32 0#32)))
                (addi x4 (broadcastInDim Cert.ReferenceIdeal.S800000 ![] Cert.ReferenceIdeal.Gen.bcast_S_S800000
                  (constantI Cert.ReferenceIdeal.S_ 32 100000#32))) x4)))
          (broadcastInDim Cert.ReferenceIdeal.S800000x256 ![0, 1] Cert.ReferenceIdeal.Gen.bcast_S800000x1_S800000x256_0_1
            (broadcastInDim Cert.ReferenceIdeal.S800000x1 ![0] Cert.ReferenceIdeal.Gen.bcast_S800000_S800000x1_0 x3))))
      (broadcastInDim Cert.ReferenceIdeal.S100000x256 ![0, 1] Cert.ReferenceIdeal.Gen.bcast_S1x256_S100000x256_0_1 x2)
      = tail (F := F) (Host.dotGeneral Cert.ReferenceIdeal.dot_S100000x256_S256x256_S100000x256_1_0_0_1_n_n none x0 x1)
          x2 x3 x4 x5 := rfl

end Cert.KernelIdeal.Tail

end
-- ==== Proof.IdealResult.lean ====
/-
  The idealized kernel's run, with its result named.

  The run ends with the product array holding the whole product of the two argument arrays (every row written once, by
  the point whose block holds it), the last result buffer holding what the host operations after the region make of
  that product and of the other four argument arrays, and the six argument arrays as they were launched.
-/
import proofs.«102895_j24781961298372_2_alg».proof.Proof.IdealValue
import proofs.«102895_j24781961298372_2_alg».proof.Proof.IdealTail

noncomputable section

namespace Cert.KernelIdeal.Result

open Cert.KernelIdeal Cert.KernelIdeal.Gen Cert.KernelIdeal.Body Cert.KernelIdeal.Product Cert.KernelIdeal.Tail
open Idealize.ShloMosaic
open Idealize.ShloMosaic.TcCoe
open Idealize.SL Idealize.SL.Sem

/-- The program's result as a function of its six argument arrays at the ideal instance: the host operations after the
    region applied to the whole product of the first two. -/
def result (x0 : S100000x256.Idx → Elt Ideal .f32) (x1 : S256x256.Idx → Elt Ideal .f32)
    (x2 : (⟨S1x256, .f32⟩ : BufTy).Contents (Elt Ideal)) (x3 : (⟨S800000, .f32⟩ : BufTy).Contents (Elt Ideal))
    (x4 x5 : (⟨S800000, .i32⟩ : BufTy).Contents (Elt Ideal)) : (⟨S100000x256, .f32⟩ : BufTy).Contents (Elt Ideal) :=
  tail (F := Ideal) (prod x0 x1) x2 x3 x4 x5

/-- Every weakly fair execution of the idealized kernel terminates without a fault, with the result buffer at
    `result` of the argument arrays and the argument arrays unchanged. -/
theorem run (mI : (ℓ : Loc nD τ sig) → Buf (Elt Ideal) ℓ) (ρ : Dev nD → PrngReg) :
    θ_run defs (onTc (τ := τ) (main (F := Ideal))) ⟨mI, fun _ => 0, ρ⟩ (fun r => ∀ c : Dev nD,
      r.2.mem ((c.tc : Thread nD τ).loc main_v15)
        = result (mI ((c.tc : Thread nD τ).loc main_arg0)) (mI ((c.tc : Thread nD τ).loc main_arg1))
            (mI ((c.tc : Thread nD τ).loc main_arg2)) (mI ((c.tc : Thread nD τ).loc main_arg3))
            (mI ((c.tc : Thread nD τ).loc main_arg4)) (mI ((c.tc : Thread nD τ).loc main_arg5))
      ∧ r.2.mem ((c.tc : Thread nD τ).loc main_arg0) = mI ((c.tc : Thread nD τ).loc main_arg0)
      ∧ r.2.mem ((c.tc : Thread nD τ).loc main_arg1) = mI ((c.tc : Thread nD τ).loc main_arg1)
      ∧ r.2.mem ((c.tc : Thread nD τ).loc main_arg2) = mI ((c.tc : Thread nD τ).loc main_arg2)
      ∧ r.2.mem ((c.tc : Thread nD τ).loc main_arg3) = mI ((c.tc : Thread nD τ).loc main_arg3)
      ∧ r.2.mem ((c.tc : Thread nD τ).loc main_arg4) = mI ((c.tc : Thread nD τ).loc main_arg4)
      ∧ r.2.mem ((c.tc : Thread nD τ).loc main_arg5) = mI ((c.tc : Thread nD τ).loc main_arg5)) :=
  (θ_run defs _ _).mono (fun r h c =>
    ⟨(((h c).2 main_v15 (Pipeline.mem_restRefs_of main_v15 (by decide) (by decide))).trans
        (afterTail_v15 mI (dats mI) c)).trans (congrArg (fun P => tail (F := Ideal) P _ _ _ _) (final mI c)),
      ((h c).1 0).trans (((dats mI 0 c).arrAt_in 0 rfl _).trans (V_main_arg0 mI c)),
      ((h c).1 1).trans (((dats mI 0 c).arrAt_in 1 rfl _).trans (V_main_arg1 mI c)),
      ((h c).2 main_arg2 (Pipeline.mem_restRefs_of main_arg2 (by decide) (by decide))).trans (W_main_arg2 mI (dats mI) c),
      ((h c).2 main_arg3 (Pipeline.mem_restRefs_of main_arg3 (by decide) (by decide))).trans (W_main_arg3 mI (dats mI) c),
      ((h c).2 main_arg4 (Pipeline.mem_restRefs_of main_arg4 (by decide) (by decide))).trans (W_main_arg4 mI (dats mI) c),
      ((h c).2 main_arg5 (Pipeline.mem_restRefs_of main_arg5 (by decide) (by decide))).trans (W_main_arg5 mI (dats mI) c)⟩)
    (run_main mI ρ)

end Cert.KernelIdeal.Result

end
-- ==== Proof.lean ====
/-
  The dense layer of a graph convolution, `x · W` computed block by block on the matrix unit and then aggregated over
  the edges on the host, against the reference that computes `x · W` in one host matrix product and aggregates the same
  way.

  The kernel's grid has 25 points; point `t` multiplies rows `4096·t … 4096·t + 4095` of `x` (100000 rows, 256 columns)
  by the whole 256 × 256 matrix `W` and writes the product's rows back. The last block overhangs the array: only 1696
  of its rows exist, the staging buffer's other rows hold values nothing names, and only the existing rows are written
  back. A row of a matrix product depends on the same row of the left factor only, so the rows written back are rows
  of `x · W`, and the 25 blocks' existing rows are each row of the array once: the array ends holding `x · W`, entry
  `(r, c)` the sum over `k` of `x (r, k) · W (k, c)`. At the ideal instance a change of float format is the identity, so
  the kernel's casts to a shorter format before the product change nothing, and the reference's host product is the
  same sum. After the product both programs apply the same host operations (fix up the source indices, gather rows,
  scale by the edge weights, add into the destination rows, add the bias) with the same constants, so their results are
  one function of the six argument arrays. No law is used beyond reading both products as the same sum, so the
  precondition (finite inputs) is not needed.

  The three frames: the word-level kernel's is proved from relational proof data (its inputs' buffers are left as found;
  nothing is said of the product's); the idealized kernel's is its run below with the result dropped; the reference has
  no kernel and its frame is its run with the result dropped. The idealization rewrote nothing, so `preserves` is
  `True`.
-/
import proofs.«102895_j24781961298372_2_alg».proof.Defs
import proofs.«102895_j24781961298372_2_alg».proof.Proof.Gen.Kernel
import proofs.«102895_j24781961298372_2_alg».proof.Proof.Gen.KernelIdeal
import proofs.«102895_j24781961298372_2_alg».proof.Proof.Gen.ReferenceIdeal
import proofs.«102895_j24781961298372_2_alg».proof.Proof.Gen.ReferenceIdeal.Run
import proofs.«102895_j24781961298372_2_alg».proof.Proof.Gen.ReferenceIdeal.Read
import proofs.«102895_j24781961298372_2_alg».proof.Proof.Gen.Pre_finite_inputs
import proofs.«102895_j24781961298372_2_alg».proof.Proof.KernelFrame
import proofs.«102895_j24781961298372_2_alg».proof.Proof.IdealResult
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := Cert.Kernel.FrameProof.frame

/-- The idealized kernel runs and leaves its arguments unchanged: its run, the result dropped. -/
theorem frame_kernelIdeal : Cert.frame_KernelIdeal := fun m ρ _ =>
  (θ_run Cert.KernelIdeal.defs _ _).mono (fun _ h c => (h c).2) (Cert.KernelIdeal.Result.run m ρ)

/-- The idealized reference runs and leaves its arguments unchanged: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, both idealized programs end with the host operations' result of the
    product `x · W` and the other four arguments: the kernel's by its run, the reference's because the term its run
    ends at is that function of its own arguments, which are the kernel's. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.KernelIdeal.Tail.ref_term_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
